-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4096x4096 .f32) (main_arg1 : FVec F S4096x4096 .f32) (main_arg2 : FVec F S4096 .f32) (main_arg3 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4096x4096 : Shape := ⟨2, ![4096, 4096]⟩
abbrev S4096 : Shape := ⟨1, ![4096]⟩
abbrev S1x4096 : Shape := ⟨2, ![1, 4096]⟩
abbrev S256x4096 : Shape := ⟨2, ![256, 4096]⟩

abbrev nBuf : Space → Nat
  | .hbm => 8
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S4096x4096, .f32⟩
  | .hbm, ⟨7, _⟩ => ⟨S4096x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4096_S1x4096 : S4096.ShapeCasts S1x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S256x4096_S256x4096_0_0 : ∀ a, (![0, 0] : Fin 2 → Nat) a + S256x4096.size a ≤ S256x4096.size a
  h_S256x4096 : 0 < S256x4096.numel
  broadcasts_S1x4096_S256x4096 : S1x4096.Broadcasts S256x4096
  natLt_1_32 : 1 < 32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .f32 = 32 ∨ (Rect.block (s := S4096x4096) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S4096x4096.size a
  hwx0_4 : ∀ i : grid0.Coords, EltTy.bits .f32 = 32 ∨ (Rect.block (s := S4096x4096) S256x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4096.size a ≤ S4096x4096.size a
  hwx0_5 : ∀ i : grid0.Coords, EltTy.bits .f32 = 32 ∨ (Rect.block (s := S4096x4096) S256x4096.size (cc0_transform_5 i) (hinb0_5 i)).WholeWords (EltTy.packing .f32)

variable [Facts₀]

abbrev win0_0 : Pipeline.Window sig grid0 :=
  Pipeline.Window.ofSpec (Memref.whole main_arg0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S256x4096.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S256x4096.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096, .f32⟩
  | .hbm, ⟨4, _⟩ => ⟨S4096, .f32⟩
  | .hbm, ⟨5, _⟩ => ⟨S_, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S1x4096, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S1x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S1x4096, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .i1⟩
  | .hbm, ⟨25, _⟩ => ⟨S4096x4096, .f32⟩
  | .hbm, ⟨26, _⟩ => ⟨S1x4096, .f32⟩
  | .hbm, ⟨27, _⟩ => ⟨S4096x4096, .f32⟩
  | .hbm, ⟨28, _⟩ => ⟨S4096x4096, .f32⟩
  | .hbm, ⟨29, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)

variable [Facts₀]

class Facts : Prop extends Facts₀ where

variable [Facts]
-- ==== Proof.LifCell.lean ====
/-
  One step of a leaky integrate-and-fire cell with a learnt time constant, on the extended reals.

  A channel has a log time constant ℓ and a threshold θ.  Its decay factor is d = e^(-1/e^ℓ).  From the previous
  membrane potential v and the input x the cell charges to  u = d·v + (1 - d)·x,  fires when  u - θ ≥ 0  (the spike s is
  1 or 0), and is reset by subtraction:  v' = u - s·θ.  Every channel of every batch row is treated alike, so the two
  results are entry-by-entry functions of the four arrays: entry (r, k) reads x and v at (r, k) and ℓ, θ at k.

  The constants -1, 1 and 0 are kept as the float words the programs print (the same word on both sides is never
  evaluated).  The one arithmetical fact recorded here is about the spike: a one-bit truth value widened to 32 bits
  and read as a signed integer is the bit read as a natural number.
-/
import Idealize.ShloMosaic.PureOps.Ideal
import Idealize.ShloMosaic.PureOps.Ideal.Laws
import Idealize.ShloMosaic.Lib.ValueIdx

noncomputable section

namespace Cert.LifCell

open Idealize.ShloMosaic Idealize.ShloMosaic.ValueIdx

/-! ## One entry -/

/-- The decay factor e^(-1/τ) of a channel whose time constant is τ = e^ℓ. -/
def decay (ℓ : EReal) : EReal := Ideal.exp (Ideal.div (Ideal.ofBits .f32 0xBF800000#32) (Ideal.exp ℓ))

/-- The membrane potential after charging: the decayed old potential plus the complementary share of the input. -/
def charge (ℓ v x : EReal) : EReal := decay ℓ * v + (Ideal.ofBits .f32 0x3F800000#32 - decay ℓ) * x

/-- The cell fires when the charged potential reaches the threshold. -/
def fires (ℓ θ v x : EReal) : BitVec 1 := Ideal.cmp .oge (charge ℓ v x - θ) (Ideal.ofBits .f32 0x00000000#32)

/-- The spike: 1 when the cell fires, 0 otherwise. -/
def spike (ℓ θ v x : EReal) : EReal := (((fires ℓ θ v x).toNat : ℝ) : EReal)

/-- The potential kept for the next step: a spike takes the threshold off. -/
def reset (ℓ θ v x : EReal) : EReal := charge ℓ v x - spike ℓ θ v x * θ

/-- A truth value widened with zeros to 32 bits and read as a signed integer is the truth value read as a
    natural number: both are 0 or 1. -/
theorem signed_of_widened_bit (b : BitVec 1) : (((b.setWidth 32).toInt : ℝ) : EReal) = ((b.toNat : ℝ) : EReal) := by
  have h : (b.setWidth 32).toInt = (b.toNat : Int) := by
    rcases BitVec.eq_zero_or_eq_one b with h | h <;> subst h <;> decide
  rw [h, Int.cast_natCast]

/-! ## The arrays -/

/-- The batch-by-channel arrays. -/
abbrev Grid : Type := (⟨2, ![4096, 4096]⟩ : Shape).Idx → EReal
/-- The per-channel parameters. -/
abbrev Chan : Type := (⟨1, ![4096]⟩ : Shape).Idx → EReal

/-- The channel an entry of the grid belongs to: its second coordinate. -/
abbrev chanOf (i : (⟨2, ![4096, 4096]⟩ : Shape).Idx) : (⟨1, ![4096]⟩ : Shape).Idx :=
  ix1 (n := 4096) ⟨(i 1).val, (i 1).isLt⟩

/-- The spikes of the whole batch. -/
def spikes (x v : Grid) (ℓ θ : Chan) : Grid := fun i => spike (ℓ (chanOf i)) (θ (chanOf i)) (v i) (x i)

/-- The potentials of the whole batch after the reset. -/
def potentials (x v : Grid) (ℓ θ : Chan) : Grid := fun i => reset (ℓ (chanOf i)) (θ (chanOf i)) (v i) (x i)

/-- An entry of the spikes, its channel named by any index with the entry's second coordinate. -/
theorem spikes_at (x v : Grid) (ℓ θ : Chan) (i : (⟨2, ![4096, 4096]⟩ : Shape).Idx) (k : (⟨1, ![4096]⟩ : Shape).Idx)
    (hk : (k 0).val = (i 1).val) : spikes x v ℓ θ i = spike (ℓ k) (θ k) (v i) (x i) := by
  have e : chanOf i = k := funext fun a => Fin.ext (by match a with | ⟨0, _⟩ => exact hk.symm)
  unfold spikes
  rw [e]

/-- An entry of the potentials, its channel named by any index with the entry's second coordinate. -/
theorem potentials_at (x v : Grid) (ℓ θ : Chan) (i : (⟨2, ![4096, 4096]⟩ : Shape).Idx) (k : (⟨1, ![4096]⟩ : Shape).Idx)
    (hk : (k 0).val = (i 1).val) : potentials x v ℓ θ i = reset (ℓ k) (θ k) (v i) (x i) := by
  have e : chanOf i = k := funext fun a => Fin.ext (by match a with | ⟨0, _⟩ => exact hk.symm)
  unfold potentials
  rw [e]

end Cert.LifCell

end
-- ==== Proof.LifReference.lean ====
/-
  The reference's two results, stage by stage, are the cell's spikes and reset potentials.

  The reference computes the decay factor once per channel, spreads it (and 1 - decay, and the threshold) over the
  batch rows, and then works entry by entry.  Read at the entry (r, k) every spread value is the per-channel value
  at k, so the stages compose to the one-entry formulas of the cell: the host's exponential and quotient are the
  extended reals' own, and its conversion of the comparison's truth value to a float reads the bit as 0 or 1.
-/
import proofs.«156060_j45853070852359_1_alg».proof.Proof.Gen.ReferenceIdeal.Read
import proofs.«156060_j45853070852359_1_alg».proof.Proof.LifCell
import Idealize.ShloMosaic.Lib.ValueIdx

noncomputable section

namespace Cert.ReferenceIdeal.LifRef

open Cert.ReferenceIdeal Cert.ReferenceIdeal.Read Cert.LifCell Idealize.ShloMosaic Idealize.ShloMosaic.ValueIdx

/-- A per-channel row spread over the batch and read at an entry is read at the entry's channel: the decay factor and
    its complement, -/
theorem chan_decay (i : S4096x4096.Idx) : idx_main_v4 (idx_main_v5 i) = chanOf i :=
  funext fun a => by match a with | ⟨0, _⟩ => rfl
/-- the threshold compared against, -/
theorem chan_thresh (i : S4096x4096.Idx) : idx_main_v13 (idx_main_v14 i) = chanOf i :=
  funext fun a => by match a with | ⟨0, _⟩ => rfl
/-- and the threshold taken off. -/
theorem chan_reset (i : S4096x4096.Idx) : idx_main_v19 (idx_main_v20 i) = chanOf i :=
  funext fun a => by match a with | ⟨0, _⟩ => rfl

/-- The reference's charged potential (its stage %12) at an entry. -/
theorem charge_stage (x v : LifCell.Grid) (ℓ : LifCell.Chan) (i : S4096x4096.Idx) :
    val_main_v12 (F := Ideal) x v ℓ i = charge (ℓ (chanOf i)) (v i) (x i) := by
  rw [val_main_v12_apply, val_main_v6_apply, val_main_v11_apply, val_main_v5_apply, val_main_v10_apply,
    val_main_v4_apply, val_main_v9_apply, val_main_v8_apply, val_main_v7_apply, val_main_cst_0_apply,
    val_main_v3_apply, val_main_v2_apply, val_main_v1_apply, val_main_cst_apply, val_main_v0_apply]
  rw [chan_decay]
  rfl

/-- The reference's first result is the batch's spikes. -/
theorem spikes_eq (x v : LifCell.Grid) (ℓ θ : LifCell.Chan) :
    val_main_v18 (F := Ideal) x v ℓ θ = spikes x v ℓ θ := by
  funext i
  rw [val_main_v18_apply, val_main_v17_apply, val_main_v15_apply, val_main_v16_apply, val_main_cst_1_apply,
    val_main_v14_apply, val_main_v13_apply, charge_stage]
  rw [chan_thresh]
  rfl

/-- The reference's second result is the batch's potentials after the reset. -/
theorem potentials_eq (x v : LifCell.Grid) (ℓ θ : LifCell.Chan) :
    val_main_v22 (F := Ideal) x v ℓ θ = potentials x v ℓ θ := by
  funext i
  rw [val_main_v22_apply, val_main_v21_apply, val_main_v20_apply, val_main_v19_apply, spikes_eq, charge_stage]
  rw [chan_reset]
  rfl

end Cert.ReferenceIdeal.LifRef

end
-- ==== Proof.LifBlock.lean ====
/-
  What the kernel body leaves in its two output blocks, entry by entry.

  At a grid point the body holds a block of 256 batch rows of the input and of the old potential, and the whole rows
  of the two per-channel parameters (as 1 × 4096 arrays).  It forms the decay factor on the parameter row, spreads
  the row over the 256 rows of the block, and works entry by entry: the entry (p, k) of the first output block is
  the cell's spike and that of the second its reset potential, for the channel k and the block's row p.
-/
import proofs.«156060_j45853070852359_1_alg».proof.Proof.Gen.KernelIdeal.Frame
import proofs.«156060_j45853070852359_1_alg».proof.Proof.LifCell
import Idealize.ShloMosaic.Lib.Pipeline.Value
import Idealize.ShloMosaic.Lib.ValueIdx

noncomputable section

namespace Cert.KernelIdeal.LifBlock

open Cert.KernelIdeal Cert.KernelIdeal.Gen Cert.LifCell Idealize.ShloMosaic Idealize.ShloMosaic.ValueIdx

theorem origin : (![0, 0] : Fin 2 → Nat) = fun _ => 0 := funext fun a => by fin_cases a <;> rfl

/-- A parameter row spread over the block's 256 rows, read at (p, k), is the row at k. -/
theorem spread_row (r : Vec Ideal S1x4096 .f32) (p : Fin 256) (k : Fin 4096) :
    broadcastTo S256x4096 r broadcasts_S1x4096_S256x4096 (ix2 p k) = r (ix2 (0 : Fin 1) k) :=
  broadcastTo_apply r broadcasts_S1x4096_S256x4096 (ix2 p k) (ix2 (0 : Fin 1) k) fun a => by
    match a with
    | ⟨0, _⟩ => show 0 = if (1 : Nat) = 1 then 0 else p.val; rw [if_pos rfl]
    | ⟨1, _⟩ => show k.val = if (4096 : Nat) = 1 then 0 else k.val; rw [if_neg (by decide)]

/-- The charged potential the body forms, at the entry (p, k) of the block. -/
theorem charge_entry (ℓ : Vec Ideal S1x4096 .f32) (x v : Vec Ideal S256x4096 .f32) (p : Fin 256) (k : Fin 4096) :
    k0_pay2 ℓ x v (ix2 p k) = charge (ℓ (ix2 (0 : Fin 1) k)) (v (ix2 p k)) (x (ix2 p k)) := by
  unfold k0_pay2
  show FloatOps.addf (F := Ideal) (φ := .f32)
      (FloatOps.mulf (F := Ideal) (φ := .f32) (broadcastTo S256x4096 _ broadcasts_S1x4096_S256x4096 (ix2 p k)) (v (ix2 p k)))
      (FloatOps.mulf (F := Ideal) (φ := .f32) (broadcastTo S256x4096 _ broadcasts_S1x4096_S256x4096 (ix2 p k)) (x (ix2 p k))) = _
  rw [spread_row, spread_row, shapeCast_self]
  rfl

/-- The spike the body stores, at the entry (p, k) of the block. -/
theorem spike_entry (ℓ θ : Vec Ideal S1x4096 .f32) (x v : Vec Ideal S256x4096 .f32) (p : Fin 256) (k : Fin 4096) :
    k0_pay3 ℓ θ x v (ix2 p k) = spike (ℓ (ix2 (0 : Fin 1) k)) (θ (ix2 (0 : Fin 1) k)) (v (ix2 p k)) (x (ix2 p k)) := by
  unfold k0_pay3 k0_pay1
  show FloatOps.sitofp (F := Ideal) .f32 ((FloatOps.cmpf (F := Ideal) (φ := .f32) .oge
      (FloatOps.subf (F := Ideal) (φ := .f32) (k0_pay2 ℓ x v (ix2 p k))
        (broadcastTo S256x4096 _ broadcasts_S1x4096_S256x4096 (ix2 p k)))
      (Scalar.ofBits (F := Ideal) .f32 0x00000000#32)).setWidth 32) = _
  rw [charge_entry, spread_row, shapeCast_self]
  exact signed_of_widened_bit _

/-- The reset potential the body stores, at the entry (p, k) of the block. -/
theorem reset_entry (ℓ θ : Vec Ideal S1x4096 .f32) (x v : Vec Ideal S256x4096 .f32) (p : Fin 256) (k : Fin 4096) :
    k0_pay4 ℓ θ x v (ix2 p k) = reset (ℓ (ix2 (0 : Fin 1) k)) (θ (ix2 (0 : Fin 1) k)) (v (ix2 p k)) (x (ix2 p k)) := by
  unfold k0_pay4 k0_pay1
  show FloatOps.subf (F := Ideal) (φ := .f32) (k0_pay2 ℓ x v (ix2 p k))
      (FloatOps.mulf (F := Ideal) (φ := .f32) (k0_pay3 ℓ θ x v (ix2 p k))
        (broadcastTo S256x4096 _ broadcasts_S1x4096_S256x4096 (ix2 p k))) = _
  rw [charge_entry, spike_entry, spread_row, shapeCast_self]
  rfl

/-- The parameter row an entry of a block reads: row 0, the entry's column. -/
abbrev rowOf (j : S256x4096.Idx) : S1x4096.Idx := ix2 (0 : Fin 1) (⟨(j 1).val, (j 1).isLt⟩ : Fin 4096)

/-- THE FIRST OUTPUT BLOCK after the body, from the four input blocks (the input, the old potential, the two
    parameter rows): the spike, entry by entry. -/
theorem spike_block (x v : Vec Ideal S256x4096 .f32) (ℓ θ : Vec Ideal S1x4096 .f32) (j : S256x4096.Idx) :
    out0_4 x v ℓ θ j = spike (ℓ (rowOf j)) (θ (rowOf j)) (v j) (x j) := by
  obtain ⟨p, k, rfl⟩ : ∃ (p : Fin 256) (k : Fin 4096), j = ix2 p k := ⟨j 0, j 1, eq_ix2 j⟩
  unfold out0_4
  rw [View.canon_unit_zero origin]
  simp only [View.ld_unit_zero (S := S1x4096) origin, View.ld_unit_zero (S := S256x4096) origin]
  exact spike_entry ℓ θ x v p k

/-- THE SECOND OUTPUT BLOCK after the body: the reset potential, entry by entry. -/
theorem reset_block (x v : Vec Ideal S256x4096 .f32) (ℓ θ : Vec Ideal S1x4096 .f32) (j : S256x4096.Idx) :
    out0_5 x v ℓ θ j = reset (ℓ (rowOf j)) (θ (rowOf j)) (v j) (x j) := by
  obtain ⟨p, k, rfl⟩ : ∃ (p : Fin 256) (k : Fin 4096), j = ix2 p k := ⟨j 0, j 1, eq_ix2 j⟩
  unfold out0_5
  rw [View.canon_unit_zero origin]
  simp only [View.ld_unit_zero (S := S1x4096) origin, View.ld_unit_zero (S := S256x4096) origin]
  exact reset_entry ℓ θ x v p k

end Cert.KernelIdeal.LifBlock

end
-- ==== Proof.LifArray.lean ====
/-
  The kernel's two result arrays after the run are the cell's spikes and reset potentials of the argument arrays.

  The grid has 16 points; point t works on the batch rows 256·t … 256·t + 255.  The input, the old potential and
  the two results move together: their block at point t is that band of rows, all 4096 channels.  The two
  parameter arrays are reshaped on the host from 4096 entries to 1 × 4096 before the call and every point reads
  the whole row.  So the entry j = (p, k) of a block at point t lies under the array entry (256·t + p, k), the
  parameters it meets are those of channel k, and by the body's entry-by-entry form what point t writes back is the
  band of the spikes (of the reset potentials) it covers.  The 16 bands cover the arrays: row r is in band r / 256.
-/
import proofs.«156060_j45853070852359_1_alg».proof.Proof.Gen.KernelIdeal.Frame
import proofs.«156060_j45853070852359_1_alg».proof.Proof.LifCell
import proofs.«156060_j45853070852359_1_alg».proof.Proof.LifBlock
import Idealize.ShloMosaic.Lib.Pipeline.Value
import Idealize.ShloMosaic.Lib.ValueIdx
import Idealize.ShloMosaic.Lib.StableHlo.Run

noncomputable section

namespace Cert.KernelIdeal.LifArray

open Cert.KernelIdeal Cert.KernelIdeal.Gen Cert.KernelIdeal.LifBlock Cert.LifCell
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## Where a block's entries lie -/

/-- The printed index maps, decided over the 16 grid points: the four batch-shaped windows sit at block row t,
    block column 0; the two parameter windows always at block (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The array entry under the entry j = (p, k) of a batch-shaped block at point t: (256·t + p, k). -/
def under (t : Fin cfg0.N) (j : S256x4096.Idx) : S4096x4096.Idx :=
  ix2 (⟨t.val * 256 + (j 0).val, by
        have ht : t.val < cfg0.N := t.isLt
        have hN : cfg0.N = 16 := N_0
        have hj : (j 0).val < 256 := (j 0).isLt
        omega⟩ : Fin 4096)
    (⟨(j 1).val, (j 1).isLt⟩ : Fin 4096)

theorem input_under (t : Fin cfg0.N) (j : S256x4096.Idx) : ((cfg0.win 0).blk t).view.emb j = under t j := by
  obtain ⟨e0, e1, -⟩ := block_index t
  funext a; apply Fin.ext
  match a with
  | ⟨0, _⟩ => show win0_0.index t (0 : Fin 2) * 256 + 1 * (j 0).val = t.val * 256 + (j 0).val; rw [e0]; omega
  | ⟨1, _⟩ => show win0_0.index t (1 : Fin 2) * 4096 + 1 * (j 1).val = (j 1).val; rw [e1]; omega

theorem potential_under (t : Fin cfg0.N) (j : S256x4096.Idx) : ((cfg0.win 1).blk t).view.emb j = under t j := by
  obtain ⟨-, -, e0, e1, -⟩ := block_index t
  funext a; apply Fin.ext
  match a with
  | ⟨0, _⟩ => show win0_1.index t (0 : Fin 2) * 256 + 1 * (j 0).val = t.val * 256 + (j 0).val; rw [e0]; omega
  | ⟨1, _⟩ => show win0_1.index t (1 : Fin 2) * 4096 + 1 * (j 1).val = (j 1).val; rw [e1]; omega

theorem spike_under (t : Fin cfg0.N) (j : S256x4096.Idx) : ((cfg0.win 4).blk t).view.emb j = under t j := by
  obtain ⟨-, -, -, -, -, -, -, -, e0, e1, -⟩ := block_index t
  funext a; apply Fin.ext
  match a with
  | ⟨0, _⟩ => show win0_4.index t (0 : Fin 2) * 256 + 1 * (j 0).val = t.val * 256 + (j 0).val; rw [e0]; omega
  | ⟨1, _⟩ => show win0_4.index t (1 : Fin 2) * 4096 + 1 * (j 1).val = (j 1).val; rw [e1]; omega

theorem reset_under (t : Fin cfg0.N) (j : S256x4096.Idx) : ((cfg0.win 5).blk t).view.emb j = under t j := by
  obtain ⟨-, -, -, -, -, -, -, -, -, -, e0, e1⟩ := block_index t
  funext a; apply Fin.ext
  match a with
  | ⟨0, _⟩ => show win0_5.index t (0 : Fin 2) * 256 + 1 * (j 0).val = t.val * 256 + (j 0).val; rw [e0]; omega
  | ⟨1, _⟩ => show win0_5.index t (1 : Fin 2) * 4096 + 1 * (j 1).val = (j 1).val; rw [e1]; omega

/-! ## The parameter rows -/

/-- A parameter array of 4096 entries reshaped to 1 × 4096, read at (0, k), is the array at k. -/
theorem row_of_chan (a : S4096.Idx → EReal) (y : S1x4096.Idx) :
    shapeCast S1x4096 a shapeCasts_S4096_S1x4096 y = a (ix1 (⟨(y 1).val, (y 1).isLt⟩ : Fin 4096)) := by
  refine shapeCast_apply a shapeCasts_S4096_S1x4096 y _ ?_
  rw [Shape.rowMajor_val_one, Shape.rowMajor_val_two]
  have h0 : (y 0).val < 1 := (y 0).isLt
  show (y 1).val = (y 0).val * 4096 + (y 1).val
  omega

/-- The region finds the reshaped log time constants in its third window's array, -/
theorem logtau_array (c : Dev nD) :
    (V m c main_v0 : S1x4096.Idx → EReal) = shapeCast S1x4096 (m ((c : Thread nD τ).loc main_arg2)) shapeCasts_S4096_S1x4096 := by
  dsimp only [Gen.V, Gen.hostOps0]; after_results; rfl

/-- and the reshaped thresholds in its fourth window's. -/
theorem thresh_array (c : Dev nD) :
    (V m c main_v1 : S1x4096.Idx → EReal) = shapeCast S1x4096 (m ((c : Thread nD τ).loc main_arg3)) shapeCasts_S4096_S1x4096 := by
  dsimp only [Gen.V, Gen.hostOps0]; after_results; rfl

/-! ## The blocks the body is given -/

theorem input_block (c : Dev nD) (t : Fin cfg0.N) (j : S256x4096.Idx) :
    iblk m c 0 t j = m ((c : Thread nD τ).loc main_arg0) (under t j) := by
  show V m c main_arg0 (((cfg0.win 0).blk t).view.emb j) = _
  rw [input_under, V_main_arg0]

theorem potential_block (c : Dev nD) (t : Fin cfg0.N) (j : S256x4096.Idx) :
    iblk m c 1 t j = m ((c : Thread nD τ).loc main_arg1) (under t j) := by
  show V m c main_arg1 (((cfg0.win 1).blk t).view.emb j) = _
  rw [potential_under, V_main_arg1]

theorem logtau_block (c : Dev nD) (t : Fin cfg0.N) (y : S1x4096.Idx) :
    iblk m c 2 t y = m ((c : Thread nD τ).loc main_arg2) (ix1 (⟨(y 1).val, (y 1).isLt⟩ : Fin 4096)) := by
  obtain ⟨-, -, -, -, e0, e1, -⟩ := block_index t
  show (V m c main_v0 : S1x4096.Idx → EReal) (((cfg0.win 2).blk t).view.emb y) = _
  rw [logtau_array, row_of_chan]
  refine congrArg _ (congrArg _ (Fin.ext ?_))
  show win0_2.index t (1 : Fin 2) * 4096 + 1 * (y 1).val = (y 1).val
  rw [e1]; omega

theorem thresh_block (c : Dev nD) (t : Fin cfg0.N) (y : S1x4096.Idx) :
    iblk m c 3 t y = m ((c : Thread nD τ).loc main_arg3) (ix1 (⟨(y 1).val, (y 1).isLt⟩ : Fin 4096)) := by
  obtain ⟨-, -, -, -, -, -, e0, e1, -⟩ := block_index t
  show (V m c main_v1 : S1x4096.Idx → EReal) (((cfg0.win 3).blk t).view.emb y) = _
  rw [thresh_array, row_of_chan]
  refine congrArg _ (congrArg _ (Fin.ext ?_))
  show win0_3.index t (1 : Fin 2) * 4096 + 1 * (y 1).val = (y 1).val
  rw [e1]; omega

/-! ## What each point writes back -/

/-- Point t writes back the band of the spikes its block covers. -/
theorem spikes_flushed (c : Dev nD) (t : Fin cfg0.N) :
    (dats m 0 c).flushed 4 t = ((cfg0.win 4).blk t).view.read (Elt Ideal)
      (spikes (m ((c : Thread nD τ).loc main_arg0)) (m ((c : Thread nD τ).loc main_arg1))
        (m ((c : Thread nD τ).loc main_arg2)) (m ((c : Thread nD τ).loc main_arg3))) := by
  show (cfg0.win 4).cut (grid0.coords t) ((dats m 0 c).after 4 t) = _
  rw [after0_4]
  funext j
  show out0_4 (iblk m c 0 t) (iblk m c 1 t) (iblk m c 2 t) (iblk m c 3 t) j
    = spikes _ _ _ _ (((cfg0.win 4).blk t).view.emb j)
  rw [spike_block, spike_under, input_block, potential_block, logtau_block, thresh_block]
  rfl

/-- Point t writes back the band of the reset potentials its block covers. -/
theorem potentials_flushed (c : Dev nD) (t : Fin cfg0.N) :
    (dats m 0 c).flushed 5 t = ((cfg0.win 5).blk t).view.read (Elt Ideal)
      (potentials (m ((c : Thread nD τ).loc main_arg0)) (m ((c : Thread nD τ).loc main_arg1))
        (m ((c : Thread nD τ).loc main_arg2)) (m ((c : Thread nD τ).loc main_arg3))) := by
  show (cfg0.win 5).cut (grid0.coords t) ((dats m 0 c).after 5 t) = _
  rw [after0_5]
  funext j
  show out0_5 (iblk m c 0 t) (iblk m c 1 t) (iblk m c 2 t) (iblk m c 3 t) j
    = potentials _ _ _ _ (((cfg0.win 5).blk t).view.emb j)
  rw [reset_block, reset_under, input_block, potential_block, logtau_block, thresh_block]
  rfl

/-! ## The bands cover the arrays -/

theorem mem_spike_band (t : Fin cfg0.N) (i : S4096x4096.Idx) :
    i ∈ ((cfg0.win 4).blk t).view.set ↔ ∀ a : Fin 2, win0_4.index t a * S256x4096.size a ≤ (i a).val
      ∧ (i a).val < win0_4.index t a * S256x4096.size a + S256x4096.size a := by
  show i ∈ ((View.whole main_v2_0).slice (win0_4.rect t)).set ↔ _
  rw [View.set_slice_whole, Rect.mem_set_unit]
  exact Iff.rfl

theorem mem_reset_band (t : Fin cfg0.N) (i : S4096x4096.Idx) :
    i ∈ ((cfg0.win 5).blk t).view.set ↔ ∀ a : Fin 2, win0_5.index t a * S256x4096.size a ≤ (i a).val
      ∧ (i a).val < win0_5.index t a * S256x4096.size a + S256x4096.size a := by
  show i ∈ ((View.whole main_v2_1).slice (win0_5.rect t)).set ↔ _
  rw [View.set_slice_whole, Rect.mem_set_unit]
  exact Iff.rfl

/-- The point whose band holds batch row r is r / 256. -/
theorem band_of_row (i : S4096x4096.Idx) : ∃ t : Fin cfg0.N, t.val = (i 0).val / 256 := by
  have hi : (i 0).val < 4096 := (i 0).isLt
  have hN : cfg0.N = 16 := N_0
  exact ⟨⟨(i 0).val / 256, by rw [hN]; omega⟩, rfl⟩

theorem spike_cover (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  obtain ⟨t, ht⟩ := band_of_row i
  obtain ⟨-, -, -, -, -, -, -, -, e0, e1, -⟩ := block_index t
  refine ⟨t, flush0_4 t, ?_⟩
  rw [mem_spike_band]
  intro a
  match a with
  | ⟨0, _⟩ =>
    show win0_4.index t (0 : Fin 2) * 256 ≤ (i 0).val ∧ (i 0).val < win0_4.index t (0 : Fin 2) * 256 + 256
    rw [e0, ht]; omega
  | ⟨1, _⟩ =>
    show win0_4.index t (1 : Fin 2) * 4096 ≤ (i 1).val ∧ (i 1).val < win0_4.index t (1 : Fin 2) * 4096 + 4096
    rw [e1]; omega

theorem reset_cover (i : S4096x4096.Idx) :
    ∃ t : Fin cfg0.N, (cfg0.win 5).flush t = true ∧ i ∈ ((cfg0.win 5).blk t).view.set := by
  have hi0 : (i 0).val < 4096 := (i 0).isLt
  have hi1 : (i 1).val < 4096 := (i 1).isLt
  obtain ⟨t, ht⟩ := band_of_row i
  obtain ⟨-, -, -, -, -, -, -, -, -, -, e0, e1⟩ := block_index t
  refine ⟨t, flush0_5 t, ?_⟩
  rw [mem_reset_band]
  intro a
  match a with
  | ⟨0, _⟩ =>
    show win0_5.index t (0 : Fin 2) * 256 ≤ (i 0).val ∧ (i 0).val < win0_5.index t (0 : Fin 2) * 256 + 256
    rw [e0, ht]; omega
  | ⟨1, _⟩ =>
    show win0_5.index t (1 : Fin 2) * 4096 ≤ (i 1).val ∧ (i 1).val < win0_5.index t (1 : Fin 2) * 4096 + 4096
    rw [e1]; omega

/-! ## The arrays after the run, and the run -/

theorem spikes_final (c : Dev nD) :
    (dats m 0 c).arrAt 4 cfg0.N = spikes (m ((c : Thread nD τ).loc main_arg0)) (m ((c : Thread nD τ).loc main_arg1))
      (m ((c : Thread nD τ).loc main_arg2)) (m ((c : Thread nD τ).loc main_arg3)) :=
  (dats m 0 c).arrAt_eq_of_cover 4 _ (fun t _ => spikes_flushed m c t) spike_cover

theorem potentials_final (c : Dev nD) :
    (dats m 0 c).arrAt 5 cfg0.N = potentials (m ((c : Thread nD τ).loc main_arg0)) (m ((c : Thread nD τ).loc main_arg1))
      (m ((c : Thread nD τ).loc main_arg2)) (m ((c : Thread nD τ).loc main_arg3)) :=
  (dats m 0 c).arrAt_eq_of_cover 5 _ (fun t _ => potentials_flushed m c t) reset_cover

/-- Every weakly fair execution of the kernel's program ends with the first result array at the spikes and the
    second at the reset potentials of the argument arrays, the arguments as they were: the two batch-shaped
    arguments are staged and never written back, the two parameter arrays are only read by the host reshapes. -/
theorem run : θ_run defs (onTc (τ := τ) (main (F := Ideal))) ⟨m, fun _ => 0, ρ⟩ fun r => ∀ c : Dev nD,
      r.2.mem ((c : Thread nD τ).loc main_v2_0) = spikes (m ((c : Thread nD τ).loc main_arg0))
          (m ((c : Thread nD τ).loc main_arg1)) (m ((c : Thread nD τ).loc main_arg2)) (m ((c : Thread nD τ).loc main_arg3))
      ∧ r.2.mem ((c : Thread nD τ).loc main_v2_1) = potentials (m ((c : Thread nD τ).loc main_arg0))
          (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
      ⟨((h c).1 4).trans (spikes_final m c),
       ((h c).1 5).trans (potentials_final m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).2 main_arg2 (Pipeline.mem_restRefs_of main_arg2 (by decide) (by decide))).trans (V_main_arg2 m c),
       ((h c).2 main_arg3 (Pipeline.mem_restRefs_of main_arg3 (by decide) (by decide))).trans (V_main_arg3 m c)⟩)
    (run_main m ρ)

end Cert.KernelIdeal.LifArray

end
-- ==== Proof.lean ====
/-
  A leaky integrate-and-fire step: the tiled kernel against its plain reference, over the extended reals.

  Both programs compute, for every batch row r and channel k, the cell of Proof/LifCell.lean: the decay factor
  d = e^(-1/e^ℓ) of the channel, the charged potential u = d·v + (1 - d)·x, the spike s = [u - θ ≥ 0] and the reset
  potential u - s·θ.  They do so operation by operation in the same order, so no law of the extended reals is
  needed and the precondition (finite inputs) is never opened; what differs is the arrangement.  The kernel walks
  the batch in 16 bands of 256 rows and spreads the two parameter rows, reshaped to 1 × 4096 on the host, over a
  band inside the body; the reference spreads the per-channel values over the whole batch.  It also reaches the
  spike differently: the kernel widens the comparison's bit to 32 bits and converts it as a signed integer, the
  reference converts the bit as an unsigned one — the same 0 or 1.

  Proof/LifCell.lean states the cell and the result arrays as functions of the argument arrays;
  Proof/LifReference.lean reads the reference's stages to them; Proof/LifBlock.lean reads the kernel body's two
  stores at an entry of a block; Proof/LifArray.lean places the blocks in the arrays and reads the kernel's run.
  Here the two runs are set side by side.  The three frames are the kernel's generated frame at both instances
  and the reference's generated run with its results dropped; the kernel's idealization rewrote nothing.
-/
import proofs.«156060_j45853070852359_1_alg».proof.Defs
import proofs.«156060_j45853070852359_1_alg».proof.Proof.Gen.Kernel
import proofs.«156060_j45853070852359_1_alg».proof.Proof.Gen.Kernel.Frame
import proofs.«156060_j45853070852359_1_alg».proof.Proof.Gen.KernelIdeal
import proofs.«156060_j45853070852359_1_alg».proof.Proof.Gen.KernelIdeal.Frame
import proofs.«156060_j45853070852359_1_alg».proof.Proof.Gen.ReferenceIdeal
import proofs.«156060_j45853070852359_1_alg».proof.Proof.Gen.ReferenceIdeal.Run
import proofs.«156060_j45853070852359_1_alg».proof.Proof.Gen.ReferenceIdeal.Read
import proofs.«156060_j45853070852359_1_alg».proof.Proof.Gen.Pre_finite_inputs
import proofs.«156060_j45853070852359_1_alg».proof.Proof.LifCell
import proofs.«156060_j45853070852359_1_alg».proof.Proof.LifReference
import proofs.«156060_j45853070852359_1_alg».proof.Proof.LifArray
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories that agree on the four arguments both programs end with the batch's spikes in the first
    result and its reset potentials in the second. -/
theorem algebraic : Cert.algebraic_KernelIdeal_ReferenceIdeal := by
  intro m ρ m' ρ' _ hagree
  refine ⟨_, _, Cert.KernelIdeal.LifArray.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v18_eq, Cert.ReferenceIdeal.LifRef.spikes_eq,
      (hagree c).1, (hagree c).2.1, (hagree c).2.2.1, (hagree c).2.2.2]
  · rw [Cert.ReferenceIdeal.Read.val_main_v22_eq, Cert.ReferenceIdeal.LifRef.potentials_eq,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
